-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1x128 : Shape := ⟨2, ![1, 128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S50000x128 .f32) (main_arg1 : FVec F S1x128 .f32) (main_arg2 : IVec S600000 32) (main_arg3 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  main_v8
-- ==== Kernel.lean ====
abbrev S50000x128 : Shape := ⟨2, ![50000, 128]⟩
abbrev S1x128 : Shape := ⟨2, ![1, 128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S5000x128 : Shape := ⟨2, ![5000, 128]⟩
abbrev S5000x1 : Shape := ⟨2, ![5000, 1]⟩
abbrev S600000x128 : Shape := ⟨2, ![600000, 128]⟩

abbrev nBuf : Space → Nat
  | .hbm => 39
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S1x128, .f32⟩
  | .hbm, ⟨2, _⟩ => ⟨S600000, .i32⟩
  | .hbm, ⟨3, _⟩ => ⟨S600000, .i32⟩
  | .hbm, ⟨4, _⟩ => ⟨S_, .f32⟩
  | .hbm, ⟨5, _⟩ => ⟨S600000, .f32⟩
  | .hbm, ⟨6, _⟩ => ⟨S_, .f32⟩
  | .hbm, ⟨7, _⟩ => ⟨S50000, .f32⟩
  | .hbm, ⟨8, _⟩ => ⟨S600000x1, .i32⟩
  | .hbm, ⟨9, _⟩ => ⟨S50000, .f32⟩
  | .hbm, ⟨10, _⟩ => ⟨S_, .f32⟩
  | .hbm, ⟨11, _⟩ => ⟨S50000, .f32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000, .f32⟩
  | .hbm, ⟨23, _⟩ => ⟨S50000x1, .f32⟩
  | .hbm, ⟨24, _⟩ => ⟨S50000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S1x128 : Shape := ⟨2, ![1, 128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩

abbrev nBuf : Space → Nat
  | .hbm => 45
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1x128, .f32⟩
  | .hbm, ⟨2, _⟩ => ⟨S600000, .i32⟩
  | .hbm, ⟨3, _⟩ => ⟨S600000, .i32⟩
  | .hbm, ⟨4, _⟩ => ⟨S_, .f32⟩
  | .hbm, ⟨5, _⟩ => ⟨S600000, .f32⟩
  | .hbm, ⟨6, _⟩ => ⟨S_, .f32⟩
  | .hbm, ⟨7, _⟩ => ⟨S50000, .f32⟩
  | .hbm, ⟨8, _⟩ => ⟨S600000x1, .i32⟩
  | .hbm, ⟨9, _⟩ => ⟨S50000, .f32⟩
  | .hbm, ⟨10, _⟩ => ⟨S_, .f32⟩
  | .hbm, ⟨11, _⟩ => ⟨S50000, .f32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x128, .f32⟩
  | .hbm, ⟨23, _⟩ => ⟨S50000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S50000x128, .f32⟩
  | .hbm, ⟨35, _⟩ => ⟨S600000x1, .i32⟩
  | .hbm, ⟨36, _⟩ => ⟨S50000x128, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelRun.lean ====
/-
  The idealized kernel program's run with its RESULT array named.

  The program is two grid regions among stretches of host operations; the buffer contents at each boundary are a fold
  from the launch memory (`W0` … `W4`). Every weakly fair execution terminates, nothing faulting, and the final
  memory holds, at every unscoped buffer, the last boundary's contents `W4`: in particular the result buffer holds
  `W4` read there, and the four argument arrays are as launched.
-/
import proofs.«168754_j65395172049046_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Named

end
-- ==== Proof.RowOps.lean ====
/-
  Two entrywise operations on an N × C matrix (N = 50000 rows, C = 128 columns), each one function of whole arrays:

  * `scaleRows X d`: row p of X multiplied by entry p of the one-column matrix d, so entry (p, q) is X(p,q) · d(p);
  * `filterRows X A d k`: entry (p, q) is X(p,q) − k(q) · (X(p,q) − A(p,q) · d(p)), with k a single row of C entries —
    X minus a per-column multiple of the difference between X and the row-scaled A.

  Nothing here mentions a program; the arithmetic is that of any float model `F`.
-/
import Idealize.ShloMosaic.PureOps
import Idealize.ShloMosaic.Lib.ValueIdx

namespace Cert.RowOps

open Idealize.ShloMosaic Idealize.ShloMosaic.ValueIdx

variable {F : FTy → Type} [FloatOps F]

/-- The N × C matrices, the N × 1 columns and the 1 × C rows. -/
abbrev Mat : Shape := ⟨2, ![50000, 128]⟩
abbrev Col : Shape := ⟨2, ![50000, 1]⟩
abbrev Row : Shape := ⟨2, ![1, 128]⟩

/-- Row p of `X` times entry p of the column `d`. -/
def scaleRows (X : Mat.Idx → F .f32) (d : Col.Idx → F .f32) : Mat.Idx → F .f32 :=
  fun i => FloatOps.mulf (X i) (d (ix2 (⟨(i 0).val, (i 0).isLt⟩ : Fin 50000) (0 : Fin 1)))

/-- Entry (p, q): `X(p,q) − k(q) · (X(p,q) − A(p,q) · d(p))`. -/
def filterRows (X A : Mat.Idx → F .f32) (d : Col.Idx → F .f32) (k : Row.Idx → F .f32) : Mat.Idx → F .f32 :=
  fun i => FloatOps.subf (X i) (FloatOps.mulf (k (ix2 (0 : Fin 1) (⟨(i 1).val, (i 1).isLt⟩ : Fin 128)))
    (FloatOps.subf (X i) (FloatOps.mulf (A i) (d (ix2 (⟨(i 0).val, (i 0).isLt⟩ : Fin 50000) (0 : Fin 1))))))

theorem scaleRows_apply (X : Mat.Idx → F .f32) (d : Col.Idx → F .f32) (p : Fin 50000) (q : Fin 128) :
    scaleRows X d (ix2 p q) = FloatOps.mulf (X (ix2 p q)) (d (ix2 p (0 : Fin 1))) := rfl

theorem filterRows_apply (X A : Mat.Idx → F .f32) (d : Col.Idx → F .f32) (k : Row.Idx → F .f32) (p : Fin 50000) (q : Fin 128) :
    filterRows X A d k (ix2 p q) = FloatOps.subf (X (ix2 p q)) (FloatOps.mulf (k (ix2 (0 : Fin 1) q))
      (FloatOps.subf (X (ix2 p q)) (FloatOps.mulf (A (ix2 p q)) (d (ix2 p (0 : Fin 1)))))) := rfl

end Cert.RowOps
-- ==== Proof.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.BlockBodies.lean ====
/-
  What the two kernel bodies store, read at an entry of a 5000 × 128 block.

  The first body multiplies the matrix block by its column block repeated across the 128 columns: entry (p, q) is
  h(p,q) · s(p). The second body computes x − k ⊙ (x − a ⊙ d), the column d repeated across the columns and the row k
  down the rows: entry (p, q) is x(p,q) − k(q) · (x(p,q) − a(p,q) · d(p)). The casts of a vector to its own shape are
  identities.
-/
import proofs.«168754_j65395172049046_2_alg».proof.Proof.Gen.KernelIdeal.Skeleton
import proofs.«168754_j65395172049046_2_alg».proof.Proof.LibKeepdims
import Idealize.ShloMosaic.Lib.ValueIdx
import Idealize.ShloMosaic.Lib.ValueLayout
import Idealize.ShloMosaic.Lib.Pipeline.Value

namespace Cert.KernelIdeal.Bodies

open Cert.KernelIdeal Cert.KernelIdeal.Gen Idealize.ShloMosaic Idealize.ShloMosaic.ValueIdx

variable {F : FTy → Type} [FloatOps F]

/-- The first body's stored value at (p, q): the matrix block's entry times the column block's entry p. -/
theorem scale_pay_apply (s : Vec F S5000x1 .f32) (h : Vec F S5000x128 .f32) (p : Fin 5000) (q : Fin 128) :
    k0_pay1 s h (ix2 p q) = FloatOps.mulf (h (ix2 p q)) (s (ix2 p (0 : Fin 1))) := by
  unfold k0_pay1
  simp only [shapeCast_self]
  show FloatOps.mulf (h (ix2 p q)) (broadcastTo S5000x128 s broadcasts_S5000x1_S5000x128 (ix2 p q)) = _
  rw [Cert.Lib.broadcastTo_a1_ab_apply]

/-- The second body's stored value at (p, q): `x'(p,q) − k(q) · (x(p,q) − a(p,q) · d(p))`. -/
theorem filter_pay_apply (d : Vec F S5000x1 .f32) (k : Vec F S1x128 .f32) (a x x' : Vec F S5000x128 .f32)
    (p : Fin 5000) (q : Fin 128) :
    k1_pay1 d k a x x' (ix2 p q) = FloatOps.subf (x' (ix2 p q)) (FloatOps.mulf (k (ix2 (0 : Fin 1) q))
      (FloatOps.subf (x (ix2 p q)) (FloatOps.mulf (a (ix2 p q)) (d (ix2 p (0 : Fin 1)))))) := by
  unfold k1_pay1
  simp only [shapeCast_self]
  show FloatOps.subf (x' (ix2 p q)) (FloatOps.mulf (broadcastTo S5000x128 k broadcasts_S1x128_S5000x128 (ix2 p q))
    (FloatOps.subf (x (ix2 p q)) (FloatOps.mulf (a (ix2 p q)) (broadcastTo S5000x128 d broadcasts_S5000x1_S5000x128 (ix2 p q))))) = _
  rw [Cert.Lib.broadcastTo_a1_ab_apply, broadcastTo_1b_ab_apply]

end Cert.KernelIdeal.Bodies
-- ==== Proof.ScaleRegion.lean ====
/-
  The first grid region (ten points, point t working on rows 5000·t … 5000·t + 4999): the array it writes.

  Whatever the buffers hold when the region is entered (`V`), the output array ends as `scaleRows` of the matrix
  argument and of the column operand: point t's block of the matrix and of the column are rows 5000·t … of each, the
  body stores their product with the column repeated across the columns, and the ten output blocks tile the array.
-/
import proofs.«168754_j65395172049046_2_alg».proof.Proof.Gen.KernelIdeal.Frame
import proofs.«168754_j65395172049046_2_alg».proof.Proof.RowOps
import proofs.«168754_j65395172049046_2_alg».proof.Proof.BlockBodies
import Idealize.ShloMosaic.Lib.Pipeline.Value

noncomputable section

namespace Cert.KernelIdeal.ScaleRegion

open Cert.KernelIdeal Cert.KernelIdeal.Gen Cert.RowOps
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- Point t's block index, for each of the three windows: row block t, column block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The matrix window's block at point t is rows 5000·t … of the matrix operand. -/
theorem matrix_block (c : Dev nD) (t : Fin cfg0.N) (y : S5000x128.Idx) (i : S50000x128.Idx)
    (h0 : (i 0).val = t.val * 5000 + (y 0).val) (h1 : (i 1).val = (y 1).val) :
    (iblk0 V c 0 t : Vec F S5000x128 .f32) y = (V c main_arg0 : S50000x128.Idx → Elt F .f32) i := by
  obtain ⟨e0, e1, -⟩ := block_index t
  unfold iblk0
  rw [View.read_apply]
  show (V c main_arg0 : S50000x128.Idx → Elt F .f32) _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The column window's block at point t is rows 5000·t … of the column operand. -/
theorem column_block (c : Dev nD) (t : Fin cfg0.N) (y : S5000x1.Idx) (i : S50000x1.Idx)
    (h0 : (i 0).val = t.val * 5000 + (y 0).val) (h1 : (i 1).val = (y 1).val) :
    (iblk0 V c 1 t : Vec F S5000x1 .f32) y = (V c main_v12 : S50000x1.Idx → Elt F .f32) i := by
  obtain ⟨-, -, e0, e1, -⟩ := block_index t
  unfold iblk0
  rw [View.read_apply]
  show (V c main_v12 : S50000x1.Idx → Elt F .f32) _ = V c main_v12 _
  congr 1
  funext a
  apply Fin.ext
  match a with
  | ⟨0, _⟩ => show win0_1.index t 0 * 5000 + 1 * (y 0).val = (i 0).val; rw [e0, h0]; omega
  | ⟨1, _⟩ => show win0_1.index t 1 * 1 + 1 * (y 1).val = (i 1).val; rw [e1, h1]; omega

/-- What point t writes back is block t of the row-scaled matrix. -/
theorem flushed_eq (c : Dev nD) (t : Fin cfg0.N) :
    (dat0 V c).flushed 2 t = ((cfg0.win 2).blk t).view.read (Elt F)
      (scaleRows (V c main_arg0 : S50000x128.Idx → Elt F .f32) (V c main_v12 : S50000x1.Idx → Elt F .f32)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S5000x1) zero_offsets]
  obtain ⟨-, -, -, -, e0, e1⟩ := block_index t
  funext j
  rw [View.read_apply]
  show k0_pay1 (iblk0 V c 1 t) (iblk0 V c 0 t) j = _
  obtain ⟨p, q, rfl⟩ : ∃ (p : Fin 5000) (q : Fin 128), j = ix2 p q := ⟨j 0, j 1, eq_ix2 j⟩
  refine (Cert.KernelIdeal.Bodies.scale_pay_apply (iblk0 V c 1 t) (iblk0 V c 0 t) p q).trans ?_
  have hp : t.val * 5000 + p.val < 50000 := by have := t.isLt; have hN : cfg0.N = 10 := N_0; have := p.isLt; omega
  have hemb : ((cfg0.win 2).blk t).view.emb (ix2 p q) = (ix2 (⟨t.val * 5000 + p.val, hp⟩ : Fin 50000) q : S50000x128.Idx) := by
    funext a
    apply Fin.ext
    match a with
    | ⟨0, _⟩ => show win0_2.index t 0 * 5000 + 1 * p.val = t.val * 5000 + p.val; rw [e0]; omega
    | ⟨1, _⟩ => show win0_2.index t 1 * 128 + 1 * q.val = q.val; rw [e1]; omega
  rw [hemb, scaleRows_apply]
  rw [matrix_block V c t (ix2 p q) (ix2 (⟨t.val * 5000 + p.val, hp⟩ : Fin 50000) q) rfl rfl,
    column_block V c t (ix2 p (0 : Fin 1)) (ix2 (⟨t.val * 5000 + p.val, hp⟩ : Fin 50000) (0 : Fin 1)) rfl rfl]
  exact (cast_eq _ _).symm

/-- An index of the array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- Row r of the array is in the block of point r / 5000. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by omega⟩, flush0_2 _, ?_⟩
  obtain ⟨-, -, -, -, e0, e1⟩ := block_index ⟨(i 0).val / 5000, by omega⟩
  rw [mem_block]
  intro a
  match a with
  | ⟨0, _⟩ => show win0_2.index _ 0 * 5000 ≤ (i 0).val ∧ (i 0).val < win0_2.index _ 0 * 5000 + 5000; rw [e0]; show (i 0).val / 5000 * 5000 ≤ (i 0).val ∧ (i 0).val < (i 0).val / 5000 * 5000 + 5000; omega
  | ⟨1, _⟩ => show win0_2.index _ 1 * 128 ≤ (i 1).val ∧ (i 1).val < win0_2.index _ 1 * 128 + 128; rw [e1]; omega

/-- The output array after the region: the matrix operand with row p scaled by the column operand's entry p. -/
theorem final (c : Dev nD) : (dat0 V c).arrAt 2 cfg0.N
    = scaleRows (V c main_arg0 : S50000x128.Idx → Elt F .f32) (V c main_v12 : S50000x1.Idx → Elt F .f32) :=
  (dat0 V c).arrAt_eq_of_cover 2 _ (fun t _ => flushed_eq V c t) covered

end Cert.KernelIdeal.ScaleRegion

end
-- ==== Proof.FilterRegion.lean ====
/-
  The second grid region (ten points, point t working on rows 5000·t … 5000·t + 4999): the array it writes.

  Whatever the buffers hold when the region is entered (`V`), the output array ends as `filterRows` of the matrix
  argument X, the aggregated matrix A, the column d and the row k: point t's blocks of X, A and d are rows 5000·t … of
  each, the block of k is all of it at every point, the body stores x − k ⊙ (x − a ⊙ d), and the ten output blocks
  tile the array.
-/
import proofs.«168754_j65395172049046_2_alg».proof.Proof.Gen.KernelIdeal.Frame
import proofs.«168754_j65395172049046_2_alg».proof.Proof.RowOps
import proofs.«168754_j65395172049046_2_alg».proof.Proof.BlockBodies
import Idealize.ShloMosaic.Lib.Pipeline.Value

noncomputable section

namespace Cert.KernelIdeal.FilterRegion

open Cert.KernelIdeal Cert.KernelIdeal.Gen Cert.RowOps
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- Point t's block index, for each of the five windows: row block t (the row operand: block 0), column block 0. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The matrix window's block at point t is rows 5000·t … of the matrix argument. -/
theorem matrix_block (c : Dev nD) (t : Fin cfg1.N) (y : S5000x128.Idx) (i : S50000x128.Idx)
    (h0 : (i 0).val = t.val * 5000 + (y 0).val) (h1 : (i 1).val = (y 1).val) :
    (iblk1 V c 0 t : Vec F S5000x128 .f32) y = (V c main_arg0 : S50000x128.Idx → Elt F .f32) i := by
  obtain ⟨e0, e1, -⟩ := block_index t
  unfold iblk1
  rw [View.read_apply]
  show (V c main_arg0 : S50000x128.Idx → Elt F .f32) _ = V c main_arg0 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The aggregated matrix's block at point t is rows 5000·t … of it. -/
theorem aggregate_block (c : Dev nD) (t : Fin cfg1.N) (y : S5000x128.Idx) (i : S50000x128.Idx)
    (h0 : (i 0).val = t.val * 5000 + (y 0).val) (h1 : (i 1).val = (y 1).val) :
    (iblk1 V c 1 t : Vec F S5000x128 .f32) y = (V c main_v25 : S50000x128.Idx → Elt F .f32) i := by
  obtain ⟨-, -, e0, e1, -⟩ := block_index t
  unfold iblk1
  rw [View.read_apply]
  show (V c main_v25 : S50000x128.Idx → Elt F .f32) _ = V c main_v25 _
  congr 1
  funext a
  apply Fin.ext
  match a with
  | ⟨0, _⟩ => show win1_1.index t 0 * 5000 + 1 * (y 0).val = (i 0).val; rw [e0, h0]; omega
  | ⟨1, _⟩ => show win1_1.index t 1 * 128 + 1 * (y 1).val = (i 1).val; rw [e1, h1]; omega

/-- The column window's block at point t is rows 5000·t … of the column operand. -/
theorem column_block (c : Dev nD) (t : Fin cfg1.N) (y : S5000x1.Idx) (i : S50000x1.Idx)
    (h0 : (i 0).val = t.val * 5000 + (y 0).val) (h1 : (i 1).val = (y 1).val) :
    (iblk1 V c 2 t : Vec F S5000x1 .f32) y = (V c main_v14 : S50000x1.Idx → Elt F .f32) i := by
  obtain ⟨-, -, -, -, e0, e1, -⟩ := block_index t
  unfold iblk1
  rw [View.read_apply]
  show (V c main_v14 : S50000x1.Idx → Elt F .f32) _ = V c main_v14 _
  congr 1
  funext a
  apply Fin.ext
  match a with
  | ⟨0, _⟩ => show win1_2.index t 0 * 5000 + 1 * (y 0).val = (i 0).val; rw [e0, h0]; omega
  | ⟨1, _⟩ => show win1_2.index t 1 * 1 + 1 * (y 1).val = (i 1).val; rw [e1, h1]; omega

/-- The row window's block is the whole row argument at every point. -/
theorem row_block (c : Dev nD) (t : Fin cfg1.N) (y : S1x128.Idx) :
    (iblk1 V c 3 t : Vec F S1x128 .f32) y = (V c main_arg1 : S1x128.Idx → Elt F .f32) y := by
  obtain ⟨-, -, -, -, -, -, e0, e1, -⟩ := block_index t
  unfold iblk1
  rw [View.read_apply]
  show (V c main_arg1 : S1x128.Idx → Elt F .f32) _ = V c main_arg1 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- What point t writes back is block t of the filtered matrix. -/
theorem flushed_eq (c : Dev nD) (t : Fin cfg1.N) :
    (dat1 V c).flushed 4 t = ((cfg1.win 4).blk t).view.read (Elt F)
      (filterRows (V c main_arg0 : S50000x128.Idx → Elt F .f32) (V c main_v25 : S50000x128.Idx → Elt F .f32)
        (V c main_v14 : S50000x1.Idx → Elt F .f32) (V c main_arg1 : S1x128.Idx → Elt F .f32)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  obtain ⟨-, -, -, -, -, -, -, -, e0, e1⟩ := block_index t
  funext j
  rw [View.read_apply]
  show k1_pay1 (iblk1 V c 2 t) (iblk1 V c 3 t) (iblk1 V c 1 t) (iblk1 V c 0 t) (iblk1 V c 0 t) j = _
  obtain ⟨p, q, rfl⟩ : ∃ (p : Fin 5000) (q : Fin 128), j = ix2 p q := ⟨j 0, j 1, eq_ix2 j⟩
  refine (Cert.KernelIdeal.Bodies.filter_pay_apply (iblk1 V c 2 t) (iblk1 V c 3 t) (iblk1 V c 1 t) (iblk1 V c 0 t) (iblk1 V c 0 t) p q).trans ?_
  have hp : t.val * 5000 + p.val < 50000 := by have := t.isLt; have hN : cfg1.N = 10 := N_1; have := p.isLt; omega
  have hemb : ((cfg1.win 4).blk t).view.emb (ix2 p q) = (ix2 (⟨t.val * 5000 + p.val, hp⟩ : Fin 50000) q : S50000x128.Idx) := by
    funext a
    apply Fin.ext
    match a with
    | ⟨0, _⟩ => show win1_4.index t 0 * 5000 + 1 * p.val = t.val * 5000 + p.val; rw [e0]; omega
    | ⟨1, _⟩ => show win1_4.index t 1 * 128 + 1 * q.val = q.val; rw [e1]; omega
  rw [hemb, filterRows_apply]
  rw [matrix_block V c t (ix2 p q) (ix2 (⟨t.val * 5000 + p.val, hp⟩ : Fin 50000) q) rfl rfl,
    aggregate_block V c t (ix2 p q) (ix2 (⟨t.val * 5000 + p.val, hp⟩ : Fin 50000) q) rfl rfl,
    column_block V c t (ix2 p (0 : Fin 1)) (ix2 (⟨t.val * 5000 + p.val, hp⟩ : Fin 50000) (0 : Fin 1)) rfl rfl,
    row_block V c t (ix2 (0 : Fin 1) q)]
  exact (cast_eq _ _).symm

/-- An index of the array is in point t's block iff each coordinate is in the block's range on its axis. -/
theorem mem_block (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v26).slice (win1_4.rect t)).set ↔ _
  rw [View.set_slice_whole, Rect.mem_set_unit]
  exact Iff.rfl

/-- Row r of the array is in the block of point r / 5000. -/
theorem covered (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  refine ⟨⟨(i 0).val / 5000, by omega⟩, flush1_4 _, ?_⟩
  obtain ⟨-, -, -, -, -, -, -, -, e0, e1⟩ := block_index ⟨(i 0).val / 5000, by omega⟩
  rw [mem_block]
  intro a
  match a with
  | ⟨0, _⟩ => show win1_4.index _ 0 * 5000 ≤ (i 0).val ∧ (i 0).val < win1_4.index _ 0 * 5000 + 5000; rw [e0]; show (i 0).val / 5000 * 5000 ≤ (i 0).val ∧ (i 0).val < (i 0).val / 5000 * 5000 + 5000; omega
  | ⟨1, _⟩ => show win1_4.index _ 1 * 128 ≤ (i 1).val ∧ (i 1).val < win1_4.index _ 1 * 128 + 128; rw [e1]; omega

/-- The output array after the region: `X − k ⊙ (X − A scaled by rows with d)` of the operands as entered. -/
theorem final (c : Dev nD) : (dat1 V c).arrAt 4 cfg1.N
    = filterRows (V c main_arg0 : S50000x128.Idx → Elt F .f32) (V c main_v25 : S50000x128.Idx → Elt F .f32)
        (V c main_v14 : S50000x1.Idx → Elt F .f32) (V c main_arg1 : S1x128.Idx → Elt F .f32) :=
  (dat1 V c).arrAt_eq_of_cover 4 _ (fun t _ => flushed_eq V c t) covered

end Cert.KernelIdeal.FilterRegion

end
-- ==== Proof.RefStages.lean ====
/-
  The reference's result, stage by stage, in the two row operations.

  Its row-scaled matrix is `scaleRows` of the matrix argument and of the out-degree weights kept as a column; its
  result is `filterRows` of the matrix argument, of the aggregated matrix (whatever the edge gather and
  scatter-add make of the row-scaled matrix: that stage is never opened), of the in-degree weights kept as a column,
  and of the row argument. Each is read entry by entry from the generated stage lemmas.
-/
import proofs.«168754_j65395172049046_2_alg».proof.Proof.Gen.ReferenceIdeal.Read
import proofs.«168754_j65395172049046_2_alg».proof.Proof.RowOps
import Idealize.ShloMosaic.Lib.ValueIdx

noncomputable section

namespace Cert.ReferenceIdeal.Rows

open Cert.ReferenceIdeal Cert.ReferenceIdeal.Gen Cert.ReferenceIdeal.Read Cert.RowOps
open Idealize.ShloMosaic Idealize.ShloMosaic.ValueIdx

variable {F : FTy → Type} [FloatOps F]

/-- Entry (p, q) of the matrix reads the column at (p, 0), -/
theorem column_index (p : Fin 50000) (q : Fin 128) : idx_main_v13 (ix2 p q) = ix2 p (0 : Fin 1) :=
  funext fun a => Fin.ext (by match a with | ⟨0, _⟩ => rfl | ⟨1, _⟩ => rfl)
theorem column_index' (p : Fin 50000) (q : Fin 128) : idx_main_v27 (ix2 p q) = ix2 p (0 : Fin 1) :=
  funext fun a => Fin.ext (by match a with | ⟨0, _⟩ => rfl | ⟨1, _⟩ => rfl)
/-- and the row at (0, q). -/
theorem row_index (p : Fin 50000) (q : Fin 128) : idx_main_v30 (ix2 p q) = ix2 (0 : Fin 1) q :=
  funext fun a => Fin.ext (by match a with | ⟨0, _⟩ => rfl | ⟨1, _⟩ => rfl)

/-- The reference's row-scaled matrix. -/
theorem scaled_eq (x0 : (⟨S50000x128, .f32⟩ : BufTy).Contents (Elt F)) (x2 : (⟨S600000, .i32⟩ : BufTy).Contents (Elt F)) :
    val_main_v14 (F := F) x0 x2 = scaleRows x0 (val_main_v12 (F := F) x2) := by
  funext i
  obtain ⟨p, q, rfl⟩ : ∃ (p : Fin 50000) (q : Fin 128), i = ix2 p q := ⟨i 0, i 1, eq_ix2 i⟩
  rw [val_main_v14_apply, val_main_v13_apply, column_index, scaleRows_apply]

/-- The aggregated matrix is the edge gather and scatter-add of the row-scaled matrix. -/
theorem aggregated_eq (x0 : (⟨S50000x128, .f32⟩ : BufTy).Contents (Elt F)) (x2 x3 : (⟨S600000, .i32⟩ : BufTy).Contents (Elt F)) :
    val_main_v24 (F := F) x0 x2 x3
      = Host.scatterAdd scatter_S50000x128_S600000x1_S600000x128_1_0_0_1 (val_main_v22 (F := F)) (val_main_v23 (F := F) x3)
          (Host.gather gather_S50000x128_S600000x1_S600000x128_1_0_n_n_0_1_1128 (val_main_v14 (F := F) x0 x2) (val_main_v20 (F := F) x2)) := rfl

/-- The reference's result. -/
theorem result_eq (x0 : (⟨S50000x128, .f32⟩ : BufTy).Contents (Elt F)) (x1 : (⟨S1x128, .f32⟩ : BufTy).Contents (Elt F))
    (x2 x3 : (⟨S600000, .i32⟩ : BufTy).Contents (Elt F)) :
    val_main_v32 (F := F) x0 x1 x2 x3
      = filterRows x0 (val_main_v24 (F := F) x0 x2 x3) (val_main_v26 (F := F) x3) x1 := by
  funext i
  obtain ⟨p, q, rfl⟩ : ∃ (p : Fin 50000) (q : Fin 128), i = ix2 p q := ⟨i 0, i 1, eq_ix2 i⟩
  rw [val_main_v32_apply, val_main_v31_apply, val_main_v30_apply, val_main_v29_apply, val_main_v28_apply,
    val_main_v27_apply, column_index', row_index, filterRows_apply]

end Cert.ReferenceIdeal.Rows

end
-- ==== Proof.LibColumnOf.lean ====
/-
  A vector as a one-column matrix, two ways: the reshape of an `[a]` vector to `[a, 1]` and its
  `broadcast_in_dim` along axis 0 into `[a, 1]` are the same array — both read, at `(i, u)`, the vector's entry `i`
  (`x[:, None]` against `x.reshape(a, 1)`). General in the extent; nothing here mentions a program.
-/
import proofs.«168754_j65395172049046_2_alg».proof.Proof.LibKeepdims
import Idealize.ShloMosaic.Lib.ValueIdx
import Idealize.ShloMosaic.Lib.Pipeline.Value

namespace Cert.Lib.ColumnOf

open Idealize.ShloMosaic Idealize.ShloMosaic.ValueIdx

variable {α : Type}

/-- An `[a]` vector broadcast along axis 0 into the column `[a, 1]` reads, at `(i, u)`, the vector's entry `i`. -/
theorem broadcastInDim_a_a1_apply {a : ℕ}
    (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) fun ax => ?_
  match ax with
  | ⟨0, _⟩ =>
    show i.val = if a = 1 then 0 else i.val
    split
    · have := i.isLt; omega
    · rfl

/-- The reshape of a vector to a column is its broadcast along axis 0 into the column. -/
theorem shapeCast_eq_broadcastInDim {a : ℕ} (x : (⟨1, ![a]⟩ : Shape).Idx → α)
    (hc : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x hc = broadcastInDim ⟨2, ![a, 1]⟩ (![0] : Fin 1 → Fin 2) hb x := by
  funext j
  obtain ⟨i, u, rfl⟩ : ∃ (i : Fin a) (u : Fin 1), j = ix2 i u := ⟨j 0, j 1, eq_ix2 j⟩
  rw [Cert.Lib.shapeCast_a_a1_apply, broadcastInDim_a_a1_apply]

end Cert.Lib.ColumnOf
-- ==== Proof.KernelValue.lean ====
/-
  The kernel program's result array, boundary by boundary, as the reference's own stages of the launch arguments.

  Before the first region the host computes, for each endpoint array, the weights 1 / sqrt(max(count, 1)) of the nodes
  (count(p) = how many edges name node p) and keeps each as a column: the same operations as the reference's, on the
  same arguments. The first region leaves the matrix argument with row p scaled by the out-weight of p. The host
  then gathers rows along the edges and adds them up per target node: the same two operations as the reference's,
  applied to equal arrays, and never opened. The second region leaves X − k ⊙ (X − A ⊙ in-weights): the reference's
  result.
-/
import proofs.«168754_j65395172049046_2_alg».proof.Proof.Gen.KernelIdeal.Frame
import proofs.«168754_j65395172049046_2_alg».proof.Proof.Gen.ReferenceIdeal.Read
import proofs.«168754_j65395172049046_2_alg».proof.Proof.RowOps
import proofs.«168754_j65395172049046_2_alg».proof.Proof.ScaleRegion
import proofs.«168754_j65395172049046_2_alg».proof.Proof.FilterRegion
import proofs.«168754_j65395172049046_2_alg».proof.Proof.RefStages
import proofs.«168754_j65395172049046_2_alg».proof.Proof.LibColumnOf
import Idealize.ShloMosaic.Lib.StableHlo.Run

set_option maxRecDepth 16384

noncomputable section

namespace Cert.KernelIdeal.Result

open Cert.KernelIdeal Cert.KernelIdeal.Gen Cert.RowOps
open Idealize.ShloMosaic Idealize.ShloMosaic.TcCoe Idealize.SL.Sem Idealize.ShloMosaic.StableHlo

variable {F : FTy → Type} [FloatOps F]

/-! ## The host stages are the reference's (the two programs print the same operations) -/

/-- The node weights of an endpoint array: the reference's out-weights stage … -/
theorem out_weights_eq (x : (⟨S600000, .i32⟩ : BufTy).Contents (Elt F)) :
    Host.rsqrt (maximumf (Host.scatterAdd scatter_S50000_S600000x1_S600000_n_0_0_1
        (broadcastInDim S50000 ![] bcast_S_S50000 (constant S_ .f32 0x00000000#32))
        (broadcastInDim S600000x1 ![0] bcast_S600000_S600000x1_0 x)
        (broadcastInDim S600000 ![] bcast_S_S600000 (constant S_ .f32 0x3F800000#32)))
      (broadcastInDim S50000 ![] bcast_S_S50000 (constant S_ .f32 0x3F800000#32)))
    = Cert.ReferenceIdeal.Read.val_main_v11 (F := F) x := rfl

/-- … and its in-weights stage (the same operations under other names). -/
theorem in_weights_eq (x : (⟨S600000, .i32⟩ : BufTy).Contents (Elt F)) :
    Host.rsqrt (maximumf (Host.scatterAdd scatter_S50000_S600000x1_S600000_n_0_0_1
        (broadcastInDim S50000 ![] bcast_S_S50000 (constant S_ .f32 0x00000000#32))
        (broadcastInDim S600000x1 ![0] bcast_S600000_S600000x1_0 x)
        (broadcastInDim S600000 ![] bcast_S_S600000 (constant S_ .f32 0x3F800000#32)))
      (broadcastInDim S50000 ![] bcast_S_S50000 (constant S_ .f32 0x3F800000#32)))
    = Cert.ReferenceIdeal.Read.val_main_v25 (F := F) x := rfl

/-- The edge gather and per-node sum of a matrix `Y`: the reference's, of the same `Y`. -/
theorem aggregate_eq (Y : (⟨S50000x128, .f32⟩ : BufTy).Contents (Elt F)) (x2 x3 : (⟨S600000, .i32⟩ : BufTy).Contents (Elt F)) :
    Host.scatterAdd scatter_S50000x128_S600000x1_S600000x128_1_0_0_1
      (broadcastInDim S50000x128 ![] bcast_S_S50000x128 (constant S_ .f32 0x00000000#32))
      (broadcastInDim S600000x1 ![0] bcast_S600000_S600000x1_0 x3)
      (Host.gather gather_S50000x128_S600000x1_S600000x128_1_0_n_n_0_1_1128 Y
        (broadcastInDim S600000x1 ![0] bcast_S600000_S600000x1_0
          (select (cmpi .slt x2 (broadcastInDim S600000 ![] bcast_S_S600000 (constantI S_ 32 0#32)))
            (addi x2 (broadcastInDim S600000 ![] bcast_S_S600000 (constantI S_ 32 50000#32))) x2)))
    = Host.scatterAdd Cert.ReferenceIdeal.scatter_S50000x128_S600000x1_S600000x128_1_0_0_1 (Cert.ReferenceIdeal.Read.val_main_v22 (F := F)) (Cert.ReferenceIdeal.Read.val_main_v23 (F := F) x3)
        (Host.gather Cert.ReferenceIdeal.gather_S50000x128_S600000x1_S600000x128_1_0_n_n_0_1_1128 Y (Cert.ReferenceIdeal.Read.val_main_v20 (F := F) x2)) := rfl

variable (m : (ℓ : Loc nD τ sig) → Buf (Elt F) ℓ) (ρ : Dev nD → PrngReg)

/-! ## The arguments at each boundary are as launched -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)

theorem W3_arg0 (c : Dev nD) : W3 m ρ c (Proc.devRef .tc main_arg0) = m ((c : Thread nD τ).loc main_arg0) := by
  show StableHlo.after hostOps1 (W2 m ρ c) (Proc.devRef .tc main_arg0) = _
  after_results
  exact W2_arg0 m ρ c
theorem W3_arg1 (c : Dev nD) : W3 m ρ c (Proc.devRef .tc main_arg1) = m ((c : Thread nD τ).loc main_arg1) := by
  show StableHlo.after hostOps1 (W2 m ρ c) (Proc.devRef .tc main_arg1) = _
  after_results
  exact W2_arg1 m ρ c

/-! ## The columns of weights -/

/-- Entering the first region, its column operand is the reference's out-weights column. -/
theorem W1_out_column (c : Dev nD) :
    W1 m ρ c (Proc.devRef .tc main_v12) = Cert.ReferenceIdeal.Read.val_main_v12 (F := F) (m ((c : Thread nD τ).loc main_arg2)) := by
  show StableHlo.after hostOps0 (W0 m ρ c) (Proc.devRef .tc main_v12) = _
  after_results
  refine Eq.trans (b := shapeCast S50000x1 (Host.rsqrt (maximumf (Host.scatterAdd scatter_S50000_S600000x1_S600000_n_0_0_1
        (broadcastInDim S50000 ![] bcast_S_S50000 (constant S_ .f32 0x00000000#32))
        (broadcastInDim S600000x1 ![0] bcast_S600000_S600000x1_0 (m ((c : Thread nD τ).loc main_arg2)))
        (broadcastInDim S600000 ![] bcast_S_S600000 (constant S_ .f32 0x3F800000#32)))
      (broadcastInDim S50000 ![] bcast_S_S50000 (constant S_ .f32 0x3F800000#32)))) shapeCasts_S50000_S50000x1) rfl ?_
  rw [out_weights_eq]
  exact Cert.Lib.ColumnOf.shapeCast_eq_broadcastInDim _ _ _

/-- Entering the second region, its column operand is the reference's in-weights column. -/
theorem W3_in_column (c : Dev nD) :
    W3 m ρ c (Proc.devRef .tc main_v14) = Cert.ReferenceIdeal.Read.val_main_v26 (F := F) (m ((c : Thread nD τ).loc main_arg3)) := by
  show StableHlo.after hostOps1 (W2 m ρ c) (Proc.devRef .tc main_v14) = _
  after_results
  refine (W2_of_ne m ρ c main_v14 (by decide)).trans ?_
  show StableHlo.after hostOps0 (W0 m ρ c) (Proc.devRef .tc main_v14) = _
  after_results
  refine Eq.trans (b := shapeCast S50000x1 (Host.rsqrt (maximumf (Host.scatterAdd scatter_S50000_S600000x1_S600000_n_0_0_1
        (broadcastInDim S50000 ![] bcast_S_S50000 (constant S_ .f32 0x00000000#32))
        (broadcastInDim S600000x1 ![0] bcast_S600000_S600000x1_0 (m ((c : Thread nD τ).loc main_arg3)))
        (broadcastInDim S600000 ![] bcast_S_S600000 (constant S_ .f32 0x3F800000#32)))
      (broadcastInDim S50000 ![] bcast_S_S50000 (constant S_ .f32 0x3F800000#32)))) shapeCasts_S50000_S50000x1) rfl ?_
  rw [in_weights_eq]
  exact Cert.Lib.ColumnOf.shapeCast_eq_broadcastInDim _ _ _

/-! ## The row-scaled matrix, the aggregated matrix, the result -/

/-- Leaving the first region, its output array is the reference's row-scaled matrix. -/
theorem W2_scaled (c : Dev nD) :
    W2 m ρ c (Proc.devRef .tc main_v15)
      = Cert.ReferenceIdeal.Read.val_main_v14 (F := F) (m ((c : Thread nD τ).loc main_arg0)) (m ((c : Thread nD τ).loc main_arg2)) := by
  refine (W2_arr m ρ c 2).trans ?_
  rw [Cert.KernelIdeal.ScaleRegion.final (V1 m ρ) c, Cert.ReferenceIdeal.Rows.scaled_eq]
  show scaleRows (W1 m ρ c (Proc.devRef .tc main_arg0)) (W1 m ρ c (Proc.devRef .tc main_v12)) = _
  rw [W1_arg0, W1_out_column]

/-- Entering the second region, its aggregated operand is the reference's aggregated matrix. -/
theorem W3_aggregated (c : Dev nD) :
    W3 m ρ c (Proc.devRef .tc main_v25)
      = Cert.ReferenceIdeal.Read.val_main_v24 (F := F) (m ((c : Thread nD τ).loc main_arg0)) (m ((c : Thread nD τ).loc main_arg2)) (m ((c : Thread nD τ).loc main_arg3)) := by
  show StableHlo.after hostOps1 (W2 m ρ c) (Proc.devRef .tc main_v25) = _
  after_results
  rw [W2_arg2, W2_arg3, W2_scaled, aggregate_eq, Cert.ReferenceIdeal.Rows.aggregated_eq]

/-- The result array after the run is the reference's result of the launch arguments. -/
theorem value (c : Dev nD) :
    W4 m ρ c (Proc.devRef .tc main_v26)
      = Cert.ReferenceIdeal.Read.val_main_v32 (F := F) (m ((c : Thread nD τ).loc main_arg0)) (m ((c : Thread nD τ).loc main_arg1))
          (m ((c : Thread nD τ).loc main_arg2)) (m ((c : Thread nD τ).loc main_arg3)) := by
  refine (W4_arr m ρ c 4).trans ?_
  rw [Cert.KernelIdeal.FilterRegion.final (V3 m ρ) c, Cert.ReferenceIdeal.Rows.result_eq]
  show filterRows (W3 m ρ c (Proc.devRef .tc main_arg0)) (W3 m ρ c (Proc.devRef .tc main_v25))
    (W3 m ρ c (Proc.devRef .tc main_v14)) (W3 m ρ c (Proc.devRef .tc main_arg1)) = _
  rw [W3_arg0, W3_arg1, W3_in_column, W3_aggregated]

end Cert.KernelIdeal.Result

end
-- ==== Proof.lean ====
/-
  A graph filter on N = 50000 nodes with C = 128 channels and 600000 directed edges (src → dst), as a kernel program
  and as a reference, equal at the ideal instance (floats the extended reals, every operation exact).

  Both compute, from the node matrix X, a row k of C per-channel coefficients and the two endpoint arrays,
      w_out(p) = 1 / sqrt(max(#{e : src e = p}, 1)),   w_in(p) = 1 / sqrt(max(#{e : dst e = p}, 1)),
      Y(p, ·) = X(p, ·) · w_out(p),      A(p, ·) = Σ_{e : dst e = p} Y(src e, ·),
      result(p, q) = X(p, q) − k(q) · (X(p, q) − A(p, q) · w_in(p)).
  The reference does all of it on the host. The kernel program computes the weights, the edge gather and the per-node
  sum with the same host operations, and the two row operations — Y from X and w_out, the result from X, A, w_in and
  k — each in a grid region of ten points, point t on rows 5000·t … 5000·t + 4999.

  No algebraic law is needed: every entry is the same expression in the same order on both sides, so no finiteness of
  the inputs is used. What is proved: each region's output array is one whole-array function of its operands
  (`scaleRows`, `filterRows`: Proof/ScaleRegion.lean, Proof/FilterRegion.lean); the reference's stages are the same
  functions (Proof/RefStages.lean); the host stages of the two programs are the same operations of equal arrays, the
  gather and the sum never opened (Proof/KernelValue.lean); and the kernel program's run ends with its result buffer at
  the last boundary's contents (Proof/KernelRun.lean). The rewriting pass changed nothing in the kernel, so the
  idealization claim is trivial.
-/
import proofs.«168754_j65395172049046_2_alg».proof.Defs
import proofs.«168754_j65395172049046_2_alg».proof.Proof.Gen.Kernel
import proofs.«168754_j65395172049046_2_alg».proof.Proof.Gen.Kernel.Skeleton
import proofs.«168754_j65395172049046_2_alg».proof.Proof.Gen.Kernel.Launch
import proofs.«168754_j65395172049046_2_alg».proof.Proof.Gen.Kernel.Points
import proofs.«168754_j65395172049046_2_alg».proof.Proof.Gen.Kernel.Frame
import proofs.«168754_j65395172049046_2_alg».proof.Proof.Gen.KernelIdeal
import proofs.«168754_j65395172049046_2_alg».proof.Proof.Gen.KernelIdeal.Skeleton
import proofs.«168754_j65395172049046_2_alg».proof.Proof.Gen.KernelIdeal.Launch
import proofs.«168754_j65395172049046_2_alg».proof.Proof.Gen.KernelIdeal.Points
import proofs.«168754_j65395172049046_2_alg».proof.Proof.Gen.KernelIdeal.Frame
import proofs.«168754_j65395172049046_2_alg».proof.Proof.Gen.ReferenceIdeal
import proofs.«168754_j65395172049046_2_alg».proof.Proof.Gen.ReferenceIdeal.Run
import proofs.«168754_j65395172049046_2_alg».proof.Proof.Gen.ReferenceIdeal.Read
import proofs.«168754_j65395172049046_2_alg».proof.Proof.Gen.Pre_finite_inputs
import proofs.«168754_j65395172049046_2_alg».proof.Proof.KernelRun
import proofs.«168754_j65395172049046_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the reference's result of the kernel's launch arguments: the kernel program's result
    array is that function of them (`Result.value`), and the reference's arguments agree with the kernel's. -/
theorem algebraic : Cert.algebraic_KernelIdeal_ReferenceIdeal := by
  intro m ρ m' ρ' _ hagree
  refine ⟨fun c => Cert.ReferenceIdeal.Read.val_main_v32 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Result.value m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.Read.val_main_v32_eq _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
